-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S1x11008 : S_.BroadcastsInDim S1x11008 (![] : Fin 0 → Fin S1x11008.rank)
  reducesTo_S1x11008_S_d0_1 : S1x11008.ReducesTo [0, 1] S_

variable [Facts]

def fn {F : FTy → Type} [FloatOps F] (main_arg0 : FVec F S4x2048x4096 .f32) (main_arg1 : IVec S11008x4096 32) (main_arg2 : FVec F S11008 .f32) (main_arg3 : FVec F S1x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S1x11008 .f32 := Host.absf main_arg3
  let main_cst_2 : FVec F S_ .f32 := constant S_ .f32 0x7F800000#32
  let main_v10 : FVec F S1x11008 .f32 := broadcastInDim S1x11008 ![] bcast_S_S1x11008 main_cst_2
  let main_v11 : IVec S1x11008 1 := cmpf .olt main_v9 main_v10
  let main_c_3 : IVec S_ 1 := constantI S_ 1 1#1
  let main_v12 : IVec S_ 1 := (fun x v => Host.reduce IntOp.andi x v reducesTo_S1x11008_S_d0_1 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S8192x4096 : Shape := ⟨2, ![8192, 4096]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S1x11008, .f32⟩
  | .hbm, ⟨4, _⟩ => ⟨S8192x4096, .f32⟩
  | .hbm, ⟨5, _⟩ => ⟨S8192x4096, .bf16⟩
  | .hbm, ⟨6, _⟩ => ⟨S11008x4096, .bf16⟩
  | .hbm, ⟨7, _⟩ => ⟨S1x11008, .f32⟩
  | .hbm, ⟨8, _⟩ => ⟨S8192x11008, .f32⟩
  | .hbm, ⟨9, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x11008.size a
  hwx0_4 : ∀ i : grid0.Coords, EltTy.bits .f32 = 32 ∨ (Rect.block (s := S8192x11008) S1024x256.size (cc0_transform_4 i) (hinb0_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S4x2048x11008 : Shape := ⟨3, ![4, 2048, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S1x11008, .f32⟩
  | .hbm, ⟨4, _⟩ => ⟨S11008x4096, .f32⟩
  | .hbm, ⟨5, _⟩ => ⟨S4x2048x11008, .f32⟩
  | .hbm, ⟨6, _⟩ => ⟨S1x1x11008, .f32⟩
  | .hbm, ⟨7, _⟩ => ⟨S4x2048x11008, .f32⟩
  | .hbm, ⟨8, _⟩ => ⟨S4x2048x11008, .f32⟩
  | .hbm, ⟨9, _⟩ => ⟨S1x1x11008, .f32⟩
  | .hbm, ⟨10, _⟩ => ⟨S4x2048x11008, .f32⟩
  | .hbm, ⟨11, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  bcast_S1x11008_S1x1x11008_1_2 : S1x11008.BroadcastsInDim S1x1x11008 (![1, 2] : Fin 2 → Fin S1x1x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Payload.lean ====
/-
  What the kernel body stores, read at an index.

  At a grid point the body holds a block `a` of 1024 rows of the input, a block `b` of 256 rows of the weights, and the
  matching 256 scales and 256 biases, each as one row. It multiplies `a` by the transpose of `b` into a zero accumulator,
  multiplies every row of the product by the scales and adds the biases to every row. On the extended reals the product
  into zero is the plain sum over the 4096 features, so the stored block is, at row `p` and column `q`,

      (Σ_k a[p, k] · b[q, k]) · s[0, q] + c[0, q].
-/
import proofs.«144380_j14611478741502_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-- The block product's left operand index keeps the output's row. -/
theorem lhs_row (j : S1024x256.Idx) (κ : dot_S1024x4096_S256x4096_S1024x256_1_1_0_0_n_n.contr.Idx) :
    (dot_S1024x4096_S256x4096_S1024x256_1_1_0_0_n_n.lhsIdx j κ 0).val = (j 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl

/-- The block product's right operand index takes the output's column as its row. -/
theorem rhs_row (j : S1024x256.Idx) (κ : dot_S1024x4096_S256x4096_S1024x256_1_1_0_0_n_n.contr.Idx) :
    (dot_S1024x4096_S256x4096_S1024x256_1_1_0_0_n_n.rhsIdx j κ 0).val = (j 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl

/-- The product of a 1024-row block with the transpose of a 256-row block, into zero, at `(p, q)`: row `p` of the
    first against row `q` of the second, summed over the 4096 features. -/
theorem blockProduct_apply (a : FVec Ideal S1024x4096 .bf16) (b : FVec Ideal S256x4096 .bf16) (p : Fin 1024) (q : Fin 256) :
    matmul dot_S1024x4096_S256x4096_S1024x256_1_1_0_0_n_n none a b (constant (F := Ideal) S1024x256 .f32 0x00000000#32) (ix2 p q)
      = ∑ k : Fin 4096, a (ix2 p k) * b (ix2 q k) := by
  simp only [matmul]
  rw [Ideal.matmul_constant_zero_apply,
    ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q)
      ((contrEquiv1 dot_S1024x4096_S256x4096_S1024x256_1_1_0_0_n_n 4096 rfl rfl).symm k) = ix2 p k :=
    funext fun ax => Fin.ext (by
      match ax with
      | ⟨0, _⟩ => exact lhs_row _ _
      | ⟨1, _⟩ => exact (dot_S1024x4096_S256x4096_S1024x256_1_1_0_0_n_n.lhsIdx_val_of_single rfl _ _).trans hk)
  have er : dot_S1024x4096_S256x4096_S1024x256_1_1_0_0_n_n.rhsIdx (ix2 p q)
      ((contrEquiv1 dot_S1024x4096_S256x4096_S1024x256_1_1_0_0_n_n 4096 rfl rfl).symm k) = ix2 q k :=
    funext fun ax => Fin.ext (by
      match ax with
      | ⟨0, _⟩ => exact rhs_row _ _
      | ⟨1, _⟩ => exact (dot_S1024x4096_S256x4096_S1024x256_1_1_0_0_n_n.rhsIdx_val_of_single rfl _ _).trans hk)
  rw [el, er]

/-- The stored block at `(p, q)`. -/
theorem stored_apply (a : Vec Ideal S1024x4096 .bf16) (b : Vec Ideal S256x4096 .bf16) (s c : Vec Ideal S1x256 .f32)
    (p : Fin 1024) (q : Fin 256) :
    k0_pay1 (F := Ideal) a b s c (ix2 p q)
      = (∑ k : Fin 4096, a (ix2 p k) * b (ix2 q k)) * s (ix2 (0 : Fin 1) q) + c (ix2 (0 : Fin 1) q) := by
  unfold k0_pay1
  simp only [shapeCast_self]
  rw [addf_apply, mulf_apply, blockProduct_apply, broadcastTo_1b_ab_apply, broadcastTo_1b_ab_apply]

end Cert.KernelIdeal.Body

end
-- ==== Proof.Grid.lean ====
/-
  The grid of the pipelined call, as arithmetic.

  The call runs over 8 × 43 points. At point `(i, j)` the input window is at row block `i`, the weight window at row
  block `j`, the scale and bias windows at column block `j`, and the output window at block `(i, j)`. Both facts below
  are finite statements about the printed index maps and are decided by evaluation over the 344 points.
-/
import proofs.«144380_j14611478741502_2_alg».proof.Proof.Gen.KernelIdeal.Frame

noncomputable section

open Idealize.ShloMosaic Idealize.ShloMosaic.TcCoe Idealize.SL.Sem

namespace Cert.KernelIdeal.Grid

open Cert.KernelIdeal Cert.KernelIdeal.Gen

/-- How the five windows' block indices move with the grid point, decided over the 344 points: the input block follows
    the output's row block, the weight block, the scale block and the bias block follow its column block, and the
    output's block indices stay below 8 and 43. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 7 ∧ win0_4.index t (1 : Fin 2) ≤ 42 :=
  (by decide +kernel : ∀ t : Fin grid0.N, _)

/-- Every one of the 8 × 43 output blocks is some point's. -/
theorem index_onto : ∀ (q0 : Fin 8) (q1 : Fin 43), ∃ t : Fin cfg0.N, win0_4.index t = ![q0.val, q1.val] :=
  (by decide +kernel : ∀ (q0 : Fin 8) (q1 : Fin 43), ∃ t : Fin grid0.N, win0_4.index t = ![q0.val, q1.val])

end Cert.KernelIdeal.Grid

end
-- ==== Proof.Linear.lean ====
/-
  A linear layer with integer weights, one scale per output feature and a bias, as a function on the extended reals.

  The input is `x[p, q, k]`: 4 × 2048 rows of 4096 features. The weights are integers `w[o, k]`, one row per output
  feature `o < 11008`, each read as the real number it denotes. With a scale `s[o]` and a bias `b[0, o]`,

      y[p, q, o] = (Σ_k x[p, q, k] · w[o, k]) · s[o] + b[0, o].

  `entry` is one element of `y` and `layer` is `y`. `entryFlat` and `layerFlat` are the same numbers over arrays in which
  the two leading axes are already one row axis `r = 2048 · p + q`, the weights already reals and the scale a one-row
  matrix: the form in which a tiled matrix product meets them. `layer_eq_flat` joins the two forms, entry by entry.
  Nothing here needs a finite input: both forms are the same sum of the same products, so the equation holds for
  infinite entries too.
-/
import Idealize.ShloMosaic.PureOps.Ideal
import Idealize.ShloMosaic.Lib.ValueIdx

noncomputable section

open Idealize.ShloMosaic Idealize.ShloMosaic.ValueIdx
open scoped BigOperators

namespace Cert.Linear

/-- Row `r`, output feature `o`, of the layer over a flattened batch: the row of `X` against row `o` of `W`, scaled by
    `s[0, o]`, plus `b[0, o]`. -/
def entryFlat (X : (⟨2, ![8192, 4096]⟩ : Shape).Idx → EReal) (W : (⟨2, ![11008, 4096]⟩ : Shape).Idx → EReal)
    (s b : (⟨2, ![1, 11008]⟩ : Shape).Idx → EReal) (r : Fin 8192) (o : Fin 11008) : EReal :=
  (∑ k : Fin 4096, X (ix2 r k) * W (ix2 o k)) * s (ix2 (0 : Fin 1) o) + b (ix2 (0 : Fin 1) o)

/-- The layer over a flattened batch, as one array. -/
def layerFlat (X : (⟨2, ![8192, 4096]⟩ : Shape).Idx → EReal) (W : (⟨2, ![11008, 4096]⟩ : Shape).Idx → EReal)
    (s b : (⟨2, ![1, 11008]⟩ : Shape).Idx → EReal) : (⟨2, ![8192, 11008]⟩ : Shape).Idx → EReal :=
  fun j => entryFlat X W s b (j 0) (j 1)

/-- Element `(p, q, o)` of the layer: the integer weight `w[o, k]` enters as the real number it denotes. -/
def entry (x : (⟨3, ![4, 2048, 4096]⟩ : Shape).Idx → EReal) (w : (⟨2, ![11008, 4096]⟩ : Shape).Idx → BitVec 32)
    (s : (⟨1, ![11008]⟩ : Shape).Idx → EReal) (b : (⟨2, ![1, 11008]⟩ : Shape).Idx → EReal)
    (p : Fin 4) (q : Fin 2048) (o : Fin 11008) : EReal :=
  (∑ k : Fin 4096, x (ix3 p q k) * (((w (ix2 o k)).toInt : ℝ) : EReal)) * s (ix1 o) + b (ix2 (0 : Fin 1) o)

/-- The layer, as one array. -/
def layer (x : (⟨3, ![4, 2048, 4096]⟩ : Shape).Idx → EReal) (w : (⟨2, ![11008, 4096]⟩ : Shape).Idx → BitVec 32)
    (s : (⟨1, ![11008]⟩ : Shape).Idx → EReal) (b : (⟨2, ![1, 11008]⟩ : Shape).Idx → EReal) :
    (⟨3, ![4, 2048, 11008]⟩ : Shape).Idx → EReal :=
  fun i => entry x w s b (i 0) (i 1) (i 2)

/-- The two forms agree at `(p, q, o)` and row `r` as soon as `X`'s row `r` is `x`'s row `(p, q)`, `W` holds the weights as
    reals and `S` holds the scales as a row. -/
theorem entry_eq_flat (x : (⟨3, ![4, 2048, 4096]⟩ : Shape).Idx → EReal) (w : (⟨2, ![11008, 4096]⟩ : Shape).Idx → BitVec 32)
    (s : (⟨1, ![11008]⟩ : Shape).Idx → EReal) (b : (⟨2, ![1, 11008]⟩ : Shape).Idx → EReal)
    (X : (⟨2, ![8192, 4096]⟩ : Shape).Idx → EReal) (W : (⟨2, ![11008, 4096]⟩ : Shape).Idx → EReal)
    (S : (⟨2, ![1, 11008]⟩ : Shape).Idx → EReal) (p : Fin 4) (q : Fin 2048) (o : Fin 11008) (r : Fin 8192)
    (hX : ∀ k : Fin 4096, X (ix2 r k) = x (ix3 p q k))
    (hW : ∀ k : Fin 4096, W (ix2 o k) = (((w (ix2 o k)).toInt : ℝ) : EReal))
    (hS : S (ix2 (0 : Fin 1) o) = s (ix1 o)) :
    entryFlat X W S b r o = entry x w s b p q o := by
  unfold entryFlat entry
  rw [hS]
  exact congrArg (fun t => t * s (ix1 o) + b (ix2 (0 : Fin 1) o))
    (Finset.sum_congr rfl fun k _ => by rw [hX k, hW k])

end Cert.Linear

end
-- ==== Proof.Blocks.lean ====
/-
  From the blocks the grid points write to the whole output array.

  The grid has 8 × 43 points. Point `(i, j)` reads rows `1024·i … 1024·i + 1023` of the flat input, rows
  `256·j … 256·j + 255` of the weights and columns `256·j … 256·j + 255` of the scale row and of the bias row, and writes
  the block of rows `1024·i …` and columns `256·j …` of the output. By `Payload.lean` the element it writes at `(p, q)`
  of the block is element `(1024·i + p, 256·j + q)` of `Linear.layerFlat` of the four arrays: each block is a piece of
  ONE array, the 8 × 43 blocks tile the 8192 × 11008 output, so after the last point the output is that array.
-/
import proofs.«144380_j14611478741502_2_alg».proof.Proof.Gen.KernelIdeal.Frame
import proofs.«144380_j14611478741502_2_alg».proof.Proof.Payload
import proofs.«144380_j14611478741502_2_alg».proof.Proof.Grid
import proofs.«144380_j14611478741502_2_alg».proof.Proof.Linear
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen Cert.KernelIdeal.Grid

variable (m : (ℓ : Loc nD τ sig) → Buf (Elt Ideal) ℓ)

theorem zeroOffsets : (![0, 0] : Fin 2 → Nat) = fun _ => 0 := funext fun a => by fin_cases a <;> rfl

/-- The input block at a point: its row `p` is row `1024·i + p` of the flat input. -/
theorem inputBlock_apply (c : Dev nD) (t : Fin cfg0.N) (p : Fin 1024) (k : Fin 4096) (r : Fin 8192)
    (hr : r.val = win0_4.index t (0 : Fin 2) * 1024 + p.val) :
    (iblk m c 0 t : Vec Ideal S1024x4096 .bf16) (ix2 p k) = (V m c main_v1 : S8192x4096.Idx → EReal) (ix2 r k) := by
  obtain ⟨e00, e01, -⟩ := index_facts t
  unfold iblk
  rw [View.read_apply]
  show V m c main_v1 _ = V m c main_v1 _
  refine congrArg (V m c main_v1) (funext fun a => Fin.ext ?_)
  match a with
  | ⟨0, _⟩ => show win0_0.index t (0 : Fin 2) * 1024 + 1 * p.val = r.val; rw [e00, hr]; omega
  | ⟨1, _⟩ => show win0_0.index t (1 : Fin 2) * 4096 + 1 * k.val = k.val; rw [e01]; omega

/-- The weight block at a point: its row `q` is row `256·j + q` of the weights. -/
theorem weightBlock_apply (c : Dev nD) (t : Fin cfg0.N) (q : Fin 256) (k : Fin 4096) (o : Fin 11008)
    (ho : o.val = win0_4.index t (1 : Fin 2) * 256 + q.val) :
    (iblk m c 1 t : Vec Ideal S256x4096 .bf16) (ix2 q k) = (V m c main_v2 : S11008x4096.Idx → EReal) (ix2 o k) := by
  obtain ⟨-, -, e10, e11, -⟩ := index_facts t
  unfold iblk
  rw [View.read_apply]
  show V m c main_v2 _ = V m c main_v2 _
  refine congrArg (V m c main_v2) (funext fun a => Fin.ext ?_)
  match a with
  | ⟨0, _⟩ => show win0_1.index t (0 : Fin 2) * 256 + 1 * q.val = o.val; rw [e10, ho]; omega
  | ⟨1, _⟩ => show win0_1.index t (1 : Fin 2) * 4096 + 1 * k.val = k.val; rw [e11]; omega

/-- The scale block at a point: its column `q` is column `256·j + q` of the scale row. -/
theorem scaleBlock_apply (c : Dev nD) (t : Fin cfg0.N) (q : Fin 256) (o : Fin 11008)
    (ho : o.val = win0_4.index t (1 : Fin 2) * 256 + q.val) :
    (iblk m c 2 t : Vec Ideal S1x256 .f32) (ix2 (0 : Fin 1) q) = (V m c main_v3 : S1x11008.Idx → EReal) (ix2 (0 : Fin 1) o) := by
  obtain ⟨-, -, -, -, e20, e21, -⟩ := index_facts t
  unfold iblk
  rw [View.read_apply]
  show V m c main_v3 _ = V m c main_v3 _
  refine congrArg (V m c main_v3) (funext fun a => Fin.ext ?_)
  match a with
  | ⟨0, _⟩ => show win0_2.index t (0 : Fin 2) * 1 + 1 * 0 = 0; rw [e20]
  | ⟨1, _⟩ => show win0_2.index t (1 : Fin 2) * 256 + 1 * q.val = o.val; rw [e21, ho]; omega

/-- The bias block at a point: its column `q` is column `256·j + q` of the bias row. -/
theorem biasBlock_apply (c : Dev nD) (t : Fin cfg0.N) (q : Fin 256) (o : Fin 11008)
    (ho : o.val = win0_4.index t (1 : Fin 2) * 256 + q.val) :
    (iblk m c 3 t : Vec Ideal S1x256 .f32) (ix2 (0 : Fin 1) q) = (V m c main_arg3 : S1x11008.Idx → EReal) (ix2 (0 : Fin 1) o) := by
  obtain ⟨-, -, -, -, -, -, e30, e31, -⟩ := index_facts t
  unfold iblk
  rw [View.read_apply]
  show V m c main_arg3 _ = V m c main_arg3 _
  refine congrArg (V m c main_arg3) (funext fun a => Fin.ext ?_)
  match a with
  | ⟨0, _⟩ => show win0_3.index t (0 : Fin 2) * 1 + 1 * 0 = 0; rw [e30]
  | ⟨1, _⟩ => show win0_3.index t (1 : Fin 2) * 256 + 1 * q.val = o.val; rw [e31, ho]; omega

/-- The output array the call leaves: the layer over the flat input, the real weights, the scale row and the bias row
    as the call finds them. -/
abbrev product (c : Dev nD) : S8192x11008.Idx → EReal :=
  Cert.Linear.layerFlat (V m c main_v1) (V m c main_v2) (V m c main_v3) (V m c main_arg3)

/-- What a point stores at `(p, q)` of its block is the output array's element at row `1024·i + p`, column `256·j + q`. -/
theorem stored_eq_product (c : Dev nD) (t : Fin cfg0.N) (p : Fin 1024) (q : Fin 256) (r : Fin 8192) (o : Fin 11008)
    (hr : r.val = win0_4.index t (0 : Fin 2) * 1024 + p.val) (ho : o.val = win0_4.index t (1 : Fin 2) * 256 + q.val) :
    k0_pay1 (F := Ideal) (iblk m c 0 t) (iblk m c 1 t) (iblk m c 2 t) (iblk m c 3 t) (ix2 p q) = product m c (ix2 r o) := by
  refine (Cert.KernelIdeal.Body.stored_apply (iblk m c 0 t) (iblk m c 1 t) (iblk m c 2 t) (iblk m c 3 t) p q).trans ?_
  rw [scaleBlock_apply m c t q o ho, biasBlock_apply m c t q o ho]
  show _ = Cert.Linear.entryFlat (V m c main_v1) (V m c main_v2) (V m c main_v3) (V m c main_arg3) r o
  unfold Cert.Linear.entryFlat
  refine congrArg (fun s => s * (V m c main_v3 : S1x11008.Idx → EReal) (ix2 (0 : Fin 1) o) + (V m c main_arg3 : S1x11008.Idx → EReal) (ix2 (0 : Fin 1) o))
    (Finset.sum_congr rfl fun k _ => ?_)
  rw [inputBlock_apply m c t p k r hr, weightBlock_apply m c t q k o ho]

/-- What point `t` writes back is block `t` of the output array. -/
theorem flushed_eq (c : Dev nD) (t : Fin cfg0.N) :
    (dats m 0 c).flushed 4 t = ((cfg0.win 4).blk t).view.read (Elt Ideal) (product m c) := by
  show (cfg0.win 4).cut (grid0.coords t) ((dats m 0 c).after 4 t) = _
  rw [after0_4]
  unfold out0_4
  rw [View.canon_unit_zero zeroOffsets]
  simp only [View.ld_unit_zero (S := S1024x4096) zeroOffsets, View.ld_unit_zero (S := S256x4096) zeroOffsets,
    View.ld_unit_zero (S := S1x256) zeroOffsets]
  obtain ⟨-, -, -, -, -, -, -, -, b0, b1⟩ := index_facts t
  funext j
  obtain ⟨p, q, rfl⟩ : ∃ (p : Fin 1024) (q : Fin 256), j = ix2 p q := ⟨j 0, j 1, eq_ix2 j⟩
  have hp : p.val < 1024 := p.isLt
  have hq : q.val < 256 := q.isLt
  rw [View.read_apply]
  show k0_pay1 (F := Ideal) (iblk m c 0 t) (iblk m c 1 t) (iblk m c 2 t) (iblk m c 3 t) (ix2 p q) = product m c _
  refine (stored_eq_product m c t p q ⟨win0_4.index t (0 : Fin 2) * 1024 + p.val, by omega⟩
    ⟨win0_4.index t (1 : Fin 2) * 256 + q.val, by omega⟩ rfl rfl).trans ?_
  refine congrArg (product m c) (funext fun a => Fin.ext ?_)
  match a with
  | ⟨0, _⟩ => show win0_4.index t (0 : Fin 2) * 1024 + p.val = win0_4.index t (0 : Fin 2) * 1024 + 1 * p.val; omega
  | ⟨1, _⟩ => show win0_4.index t (1 : Fin 2) * 256 + q.val = win0_4.index t (1 : Fin 2) * 256 + 1 * q.val; omega

/-- An index of the output array is in point `t`'s block iff, on each axis, it is in the block's range. -/
theorem mem_block (t : Fin cfg0.N) (i : S8192x11008.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v4).slice (win0_4.rect t)).set ↔ _
  rw [View.set_slice_whole, Rect.mem_set_unit]
  exact Iff.rfl

/-- The blocks tile the output: element `(r, o)` is in the block of the point at row block `r / 1024`, column block
    `o / 256`, and that point writes its block back. -/
theorem covered (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  obtain ⟨t, ht⟩ := index_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- After the last grid point the output array is the layer over the arrays the call was launched on. -/
theorem final (c : Dev nD) : (dats m 0 c).arrAt 4 cfg0.N = product m c :=
  (dats m 0 c).arrAt_eq_of_cover 4 (product m c) (fun t _ => flushed_eq m c t) covered

end Cert.KernelIdeal.Blocks

end
-- ==== Proof.Entry.lean ====
/-
  The arrays the pipelined call is launched on, read at an index.

  Before the call the program flattens the input's two leading axes into one row axis (row `2048 · p + q` of the flat array
  is row `(p, q)` of the input; the change of float format after it is the identity on the extended reals), converts the
  integer weights to the reals they denote, and writes the scales as a one-row matrix. The bias is passed as it is.
-/
import proofs.«144380_j14611478741502_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.ShloMosaic.ValueIdx Idealize.SL.Sem Idealize.ShloMosaic.StableHlo

namespace Cert.KernelIdeal.Entry

open Cert.KernelIdeal Cert.KernelIdeal.Gen

variable (m : (ℓ : Loc nD τ sig) → Buf (Elt Ideal) ℓ)

/-- The flat input is the input's reshape (its rounding to a shorter format is the identity here). -/
theorem flatInput_eq (c : Dev nD) :
    (V m c main_v1 : S8192x4096.Idx → EReal)
      = truncf (F := Ideal) .bf16 (shapeCast S8192x4096 (m ((c : Thread nD τ).loc main_arg0) : S4x2048x4096.Idx → EReal) shapeCasts_S4x2048x4096_S8192x4096) bitsLt_bf16_f32 := by
  show StableHlo.after hostOps0 (fun b => m (c, b)) (Proc.devRef .tc main_v1) = _
  after_results
  rfl

/-- Row `r = 2048 · p + q` of the flat input is row `(p, q)` of the input. -/
theorem flatInput_apply (c : Dev nD) (p : Fin 4) (q : Fin 2048) (r : Fin 8192) (hr : r.val = 2048 * p.val + q.val) (k : Fin 4096) :
    (V m c main_v1 : S8192x4096.Idx → EReal) (ix2 r k)
      = (m ((c : Thread nD τ).loc main_arg0) : S4x2048x4096.Idx → EReal) (ix3 p q k) := by
  rw [flatInput_eq]
  show shapeCast S8192x4096 (m ((c : Thread nD τ).loc main_arg0) : S4x2048x4096.Idx → EReal) shapeCasts_S4x2048x4096_S8192x4096 (ix2 r k) = _
  refine shapeCast_apply _ _ _ _ ?_
  show (S4x2048x4096.rowMajor (ix3 p q k)).val = (S8192x4096.rowMajor (ix2 r k)).val
  rw [Shape.rowMajor_val_three, Shape.rowMajor_val_two]
  show (p.val * 2048 + q.val) * 4096 + k.val = r.val * 4096 + k.val
  rw [hr]; ring

/-- The weights the call sees are the integer weights as reals. -/
theorem realWeights_eq (c : Dev nD) :
    (V m c main_v2 : S11008x4096.Idx → EReal)
      = sitofp (F := Ideal) .bf16 (m ((c : Thread nD τ).loc main_arg1) : S11008x4096.Idx → BitVec 32) := by
  show StableHlo.after hostOps0 (fun b => m (c, b)) (Proc.devRef .tc main_v2) = _
  after_results

theorem realWeights_apply (c : Dev nD) (j : S11008x4096.Idx) :
    (V m c main_v2 : S11008x4096.Idx → EReal) j
      = ((((m ((c : Thread nD τ).loc main_arg1) : S11008x4096.Idx → BitVec 32) j).toInt : ℝ) : EReal) := by
  rw [realWeights_eq]
  rfl

/-- The scales as a one-row matrix. -/
theorem scaleRow_eq (c : Dev nD) :
    (V m c main_v3 : S1x11008.Idx → EReal)
      = shapeCast S1x11008 (m ((c : Thread nD τ).loc main_arg2) : S11008.Idx → EReal) shapeCasts_S11008_S1x11008 := by
  show StableHlo.after hostOps0 (fun b => m (c, b)) (Proc.devRef .tc main_v3) = _
  after_results
  rfl

theorem scaleRow_apply (c : Dev nD) (o : Fin 11008) :
    (V m c main_v3 : S1x11008.Idx → EReal) (ix2 (0 : Fin 1) o)
      = (m ((c : Thread nD τ).loc main_arg2) : S11008.Idx → EReal) (ix1 o) := by
  rw [scaleRow_eq]
  exact shapeCast_a_1a_apply _ _ _ _

end Cert.KernelIdeal.Entry

end
-- ==== Proof.Whole.lean ====
/-
  The whole program's result.

  After the pipelined call the program splits the output's row axis back into the two leading axes: element `(p, q, o)`
  of the result is element `(2048·p + q, o)` of the call's output. That output is the layer over the flat input, the real
  weights and the scale row (`Blocks.lean`), and those arrays are the arguments re-laid (`Entry.lean`), so the result is
  `Linear.layer` of the arguments.
-/
import proofs.«144380_j14611478741502_2_alg».proof.Proof.Gen.KernelIdeal.Frame
import proofs.«144380_j14611478741502_2_alg».proof.Proof.Blocks
import proofs.«144380_j14611478741502_2_alg».proof.Proof.Entry
import proofs.«144380_j14611478741502_2_alg».proof.Proof.Linear
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The layer of the arguments as launched. -/
abbrev answer (c : Dev nD) : S4x2048x11008.Idx → EReal :=
  Cert.Linear.layer (m ((c : Thread nD τ).loc main_arg0)) (m ((c : Thread nD τ).loc main_arg1))
    (m ((c : Thread nD τ).loc main_arg2)) (m ((c : Thread nD τ).loc main_arg3))

/-- The call's output at row `2048·p + q` is the layer at `(p, q)`. -/
theorem product_apply (c : Dev nD) (p : Fin 4) (q : Fin 2048) (o : Fin 11008) (r : Fin 8192) (hr : r.val = 2048 * p.val + q.val) :
    Blocks.product m c (ix2 r o) = answer m c (ix3 p q o) := by
  show Cert.Linear.entryFlat (V m c main_v1) (V m c main_v2) (V m c main_v3) (V m c main_arg3) r o
    = Cert.Linear.entry (m ((c : Thread nD τ).loc main_arg0)) (m ((c : Thread nD τ).loc main_arg1))
        (m ((c : Thread nD τ).loc main_arg2)) (m ((c : Thread nD τ).loc main_arg3)) p q o
  rw [V_main_arg3 m c]
  exact Cert.Linear.entry_eq_flat _ _ _ _ _ _ _ p q o r (fun k => Entry.flatInput_apply m c p q r hr k)
    (fun k => Entry.realWeights_apply m c _) (Entry.scaleRow_apply m c o)

/-- The program's result buffer after the lines that follow the call. -/
theorem result_eq (c : Dev nD) :
    Pipeline.afterTail₀ cfgs (dats m) 0 (V0 m) [hostOps1] c main_v5 = answer m c := by
  unfold Pipeline.afterTail₀
  show StableHlo.after hostOps1 _ (Proc.devRef .tc main_v5) = _
  after_results
  funext i
  obtain ⟨p, q, o, rfl⟩ : ∃ (p : Fin 4) (q : Fin 2048) (o : Fin 11008), i = ix3 p q o := ⟨i 0, i 1, i 2, eq_ix3 i⟩
  have hp : p.val < 4 := p.isLt
  have hq : q.val < 2048 := q.isLt
  show shapeCast S4x2048x11008 (Pipeline.withArrays spec0 c (V0 m c) (fun w => (dats m 0 c).arrAt w cfg0.N)
      (Proc.devRef .tc main_v4) : S8192x11008.Idx → EReal) shapeCasts_S8192x11008_S4x2048x11008 (ix3 p q o) = _
  refine (shapeCast_apply _ _ _ (ix2 (⟨2048 * p.val + q.val, by omega⟩ : Fin 8192) o) ?_).trans ?_
  · show (S8192x11008.rowMajor (ix2 (⟨2048 * p.val + q.val, by omega⟩ : Fin 8192) o)).val = (S4x2048x11008.rowMajor (ix3 p q o)).val
    rw [Shape.rowMajor_val_three, Shape.rowMajor_val_two]
    show (2048 * p.val + q.val) * 11008 + o.val = (p.val * 2048 + q.val) * 11008 + o.val
    ring
  · have e : Pipeline.withArrays spec0 c (V0 m c) (fun w => (dats m 0 c).arrAt w cfg0.N) (Proc.devRef .tc main_v4)
        = (dats m 0 c).arrAt 4 cfg0.N := Pipeline.withArrays_arr spec0 launch0.win.arr_inj c _ _ 4
    rw [e, Blocks.final]
    exact product_apply m c p q o _ rfl

/-- Every weakly fair execution of the program ends with the result buffer at the layer of the arguments and the
    arguments as launched. -/
theorem run : θ_run defs (onTc (τ := τ) (main (F := Ideal))) ⟨m, fun _ => 0, ρ⟩ fun r => ∀ c : Dev nD,
      r.2.mem ((c.tc : Thread nD τ).loc main_v5) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Whole

end
-- ==== Proof.RefValue.lean ====
/-
  The reference computes the layer of `Linear.lean`.

  The reference converts the integer weights to reals, contracts the feature axis of `x[p, q, k]` against `w[o, k]`,
  multiplies by the scales broadcast along the two leading axes and adds the bias broadcast the same way. Read at an index
  `(p, q, o)` each broadcast is its operand at `o`, and the contraction is the sum over `k`: that is `Linear.entry`.
-/
import proofs.«144380_j14611478741502_2_alg».proof.Proof.Gen.ReferenceIdeal.Read
import proofs.«144380_j14611478741502_2_alg».proof.Proof.Linear

noncomputable section

open Idealize.ShloMosaic Idealize.ShloMosaic.ValueIdx
open scoped BigOperators

namespace Cert.ReferenceIdeal.RefValue

open Cert.ReferenceIdeal Cert.ReferenceIdeal.Gen Cert.ReferenceIdeal.Read

/-- The reference's result is the layer, element by element. -/
theorem result_eq_layer (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 : (⟨S1x11008, .f32⟩ : BufTy).Contents (Elt Ideal)) :
    val_main_v7 (F := Ideal) x0 x1 x2 x3 = Cert.Linear.layer x0 x1 x2 x3 := by
  funext i
  have el : ∀ k : Fin 4096, lidx_main_v1 i k = ix3 (i 0) (i 1) k := fun k => funext fun a => Fin.ext (by
    match a with | ⟨0, _⟩ => rfl | ⟨1, _⟩ => rfl | ⟨2, _⟩ => rfl)
  have er : ∀ k : Fin 4096, ridx_main_v1 i k = ix2 (i 2) k := fun k => funext fun a => Fin.ext (by
    match a with | ⟨0, _⟩ => rfl | ⟨1, _⟩ => rfl)
  have es : idx_main_v2 (idx_main_v3 i) = ix1 (i 2) := funext fun a => Fin.ext (by
    match a with | ⟨0, _⟩ => rfl)
  have eb : idx_main_v5 (idx_main_v6 i) = ix2 (0 : Fin 1) (i 2) := funext fun a => Fin.ext (by
    match a with | ⟨0, _⟩ => rfl | ⟨1, _⟩ => rfl)
  rw [val_main_v7_apply, val_main_v4_apply, val_main_v1_apply, val_main_v3_apply, val_main_v2_apply, val_main_v6_apply,
    val_main_v5_apply, es, eb]
  simp only [val_main_v0_apply, el, er]
  rfl

end Cert.ReferenceIdeal.RefValue

end
-- ==== Proof.lean ====
/-
  A linear layer with integer weights: a tiled kernel against its textbook reference, on the extended reals.

  Both programs compute, for an input `x[p, q, k]` (4 × 2048 rows of 4096 features), integer weights `w[o, k]`
  (11008 output features), scales `s[o]` and a bias `b[0, o]`,

      y[p, q, o] = (Σ_k x[p, q, k] · w[o, k]) · s[o] + b[0, o].

  The reference contracts the whole arrays at once and broadcasts the scales and the bias (`Proof/RefValue.lean`). The
  kernel flattens the two leading axes, cuts the 8192 × 11008 output into 8 × 43 blocks of 1024 × 256, computes each block
  from 1024 rows of the input and 256 rows of the weights (`Proof/Payload.lean`, `Proof/Blocks.lean`), and splits the row
  axis back (`Proof/Whole.lean`). On the extended reals a change of float format is the identity and an integer converts to
  the real it denotes whatever the target format, so the two results are the same sums of the same products, entry by
  entry (`Proof/Linear.lean`); no law that needs finite operands is used, and the precondition is never opened.
  The three frames are the generated ones (the reference's is its generated run with the result dropped), and the
  idealization rewrote nothing, so there is nothing to preserve.
-/
import proofs.«144380_j14611478741502_2_alg».proof.Defs
import proofs.«144380_j14611478741502_2_alg».proof.Proof.Gen.Kernel
import proofs.«144380_j14611478741502_2_alg».proof.Proof.Gen.Kernel.Skeleton
import proofs.«144380_j14611478741502_2_alg».proof.Proof.Gen.Kernel.Launch
import proofs.«144380_j14611478741502_2_alg».proof.Proof.Gen.Kernel.Points
import proofs.«144380_j14611478741502_2_alg».proof.Proof.Gen.Kernel.Frame
import proofs.«144380_j14611478741502_2_alg».proof.Proof.Gen.KernelIdeal
import proofs.«144380_j14611478741502_2_alg».proof.Proof.Gen.KernelIdeal.Skeleton
import proofs.«144380_j14611478741502_2_alg».proof.Proof.Gen.KernelIdeal.Launch
import proofs.«144380_j14611478741502_2_alg».proof.Proof.Gen.KernelIdeal.Points
import proofs.«144380_j14611478741502_2_alg».proof.Proof.Gen.KernelIdeal.Frame
import proofs.«144380_j14611478741502_2_alg».proof.Proof.Gen.ReferenceIdeal
import proofs.«144380_j14611478741502_2_alg».proof.Proof.Gen.ReferenceIdeal.Run
import proofs.«144380_j14611478741502_2_alg».proof.Proof.Gen.ReferenceIdeal.Read
import proofs.«144380_j14611478741502_2_alg».proof.Proof.Gen.Pre_finite_inputs
import Idealize.ShloMosaic.Adequacy
import Idealize.ShloMosaic.Init
import proofs.«144380_j14611478741502_2_alg».proof.Proof.Whole
import proofs.«144380_j14611478741502_2_alg».proof.Proof.RefValue

noncomputable section

namespace Cert.Proof

open Idealize.ShloMosaic Idealize.SL.Sem

theorem frame_kernel : Cert.frame_Kernel := fun m ρ _ => Cert.Kernel.Gen.frame m ρ

theorem frame_idealKernel : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the layer of those arguments in their result. -/
theorem algebraic : Cert.algebraic_KernelIdeal_ReferenceIdeal := by
  intro m ρ m' ρ' _ hagree
  refine ⟨fun c => Cert.KernelIdeal.Whole.answer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _ _ _).trans ?_
  rw [Cert.ReferenceIdeal.RefValue.result_eq_layer, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_idealKernel, frame_reference, preserves, algebraic⟩

end Cert.Proof

end
